-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_arg3)) (v1 : (c : Dev Cert.KernelIdeal.nD) → Buf (Elt Ideal) ((c.tc : Thread Cert.KernelIdeal.nD Cert.KernelIdeal.τ).loc Cert.KernelIdeal.main_arg6)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg3) = v0 c
          ∧ r.2.mem ((c.tc : Thread Cert.KernelIdeal.nD Cert.KernelIdeal.τ).loc Cert.KernelIdeal.main_arg6) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg3) = v0 c
          ∧ r.2.mem ((c.tc : Thread Cert.ReferenceIdeal.nD Cert.ReferenceIdeal.τ).loc Cert.ReferenceIdeal.main_arg6) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S2000000x32 : Shape := ⟨2, ![2000000, 32]⟩
abbrev S892865x3 : Shape := ⟨2, ![892865, 3]⟩
abbrev S3 : Shape := ⟨1, ![3]⟩
abbrev S2000000 : Shape := ⟨1, ![2000000]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S2000000x32 : S_.BroadcastsInDim S2000000x32 (![] : Fin 0 → Fin S2000000x32.rank)
  reducesTo_S2000000x32_S_d0_1 : S2000000x32.ReducesTo [0, 1] S_
  bcast_S_S892865x3 : S_.BroadcastsInDim S892865x3 (![] : Fin 0 → Fin S892865x3.rank)
  reducesTo_S892865x3_S_d0_1 : S892865x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S2000000x3 .f32) (main_arg1 : FVec F S2000000x32 .f32) (main_arg2 : FVec F S892865x3 .f32) (main_arg3 : IVec S892865x3 32) (main_arg4 : FVec F S3 .f32) (main_arg5 : IVec S2000000 32) (main_arg6 : IVec S2000000 32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x32 .f32 := Host.absf main_arg1
  let main_cst_0 : FVec F S_ .f32 := constant S_ .f32 0x7F800000#32
  let main_v5 : FVec F S2000000x32 .f32 := broadcastInDim S2000000x32 ![] bcast_S_S2000000x32 main_cst_0
  let main_v6 : IVec S2000000x32 1 := cmpf .olt main_v4 main_v5
  let main_c_1 : IVec S_ 1 := constantI S_ 1 1#1
  let main_v7 : IVec S_ 1 := (fun x v => Host.reduce IntOp.andi x v reducesTo_S2000000x32_S_d0_1 h_S_) main_v6 main_c_1
  let main_v8 : IVec S_ 1 := andi main_v3 main_v7
  let main_v9 : FVec F S892865x3 .f32 := Host.absf main_arg2
  let main_cst_2 : FVec F S_ .f32 := constant S_ .f32 0x7F800000#32
  let main_v10 : FVec F S892865x3 .f32 := broadcastInDim S892865x3 ![] bcast_S_S892865x3 main_cst_2
  let main_v11 : IVec S892865x3 1 := cmpf .olt main_v9 main_v10
  let main_c_3 : IVec S_ 1 := constantI S_ 1 1#1
  let main_v12 : IVec S_ 1 := (fun x v => Host.reduce IntOp.andi x v reducesTo_S892865x3_S_d0_1 h_S_) main_v11 main_c_3
  let main_v13 : IVec S_ 1 := andi main_v8 main_v12
  let main_v14 : FVec F S3 .f32 := Host.absf main_arg4
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S2000000x3 : Shape := ⟨2, ![2000000, 3]⟩
abbrev S2000000x32 : Shape := ⟨2, ![2000000, 32]⟩
abbrev S892865x3 : Shape := ⟨2, ![892865, 3]⟩
abbrev S3 : Shape := ⟨1, ![3]⟩
abbrev S2000000 : Shape := ⟨1, ![2000000]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S2000000x38 : Shape := ⟨2, ![2000000, 38]⟩
abbrev S5000x32 : Shape := ⟨2, ![5000, 32]⟩
abbrev S5000x3 : Shape := ⟨2, ![5000, 3]⟩
abbrev S5000x38 : Shape := ⟨2, ![5000, 38]⟩
abbrev S1x3 : Shape := ⟨2, ![1, 3]⟩

abbrev nBuf : Space → Nat
  | .hbm => 77
  | .vmem => 9
  | .smem => 0
  | _ => 0

abbrev bufTy : (tb : Table) → Fin (tcTables nBuf tb) → BufTy
  | .hbm, ⟨0, _⟩ => ⟨S2000000x3, .f32⟩
  | .hbm, ⟨1, _⟩ => ⟨S2000000x32, .f32⟩
  | .hbm, ⟨2, _⟩ => ⟨S892865x3, .f32⟩
  | .hbm, ⟨3, _⟩ => ⟨S892865x3, .i32⟩
  | .hbm, ⟨4, _⟩ => ⟨S3, .f32⟩
  | .hbm, ⟨5, _⟩ => ⟨S2000000, .i32⟩
  | .hbm, ⟨6, _⟩ => ⟨S2000000, .i32⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S1, .i32⟩
  | .hbm, ⟨16, _⟩ => ⟨S_, .i32⟩
  | .hbm, ⟨17, _⟩ => ⟨S2000000x1, .i32⟩
  | .hbm, ⟨18, _⟩ => ⟨S2000000x1, .i1⟩
  | .hbm, ⟨19, _⟩ => ⟨S1x1, .i32⟩
  | .hbm, ⟨20, _⟩ => ⟨S2000000x1, .i32⟩
  | .hbm, ⟨21, _⟩ => ⟨S2000000x1, .i1⟩
  | .hbm, ⟨22, _⟩ => ⟨S2000000x1, .i1⟩
  | .hbm, ⟨23, _⟩ => ⟨S_, .i1⟩
  | .hbm, ⟨24, _⟩ => ⟨S2000000, .i1⟩
  | .hbm, ⟨25, _⟩ => ⟨S2000000x32, .f32⟩
  | .hbm, ⟨26, _⟩ => ⟨S2000000x32, .i1⟩
  | .hbm, ⟨27, _⟩ => ⟨S_, .f32⟩
  | .hbm, ⟨28, _⟩ => ⟨S2000000x32, .f32⟩
  | .hbm, ⟨29, _⟩ => ⟨S2000000x32, .f32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S1, .i32⟩
  | .hbm, ⟨39, _⟩ => ⟨S_, .i32⟩
  | .hbm, ⟨40, _⟩ => ⟨S2000000x1, .i32⟩
  | .hbm, ⟨41, _⟩ => ⟨S2000000x1, .i1⟩
  | .hbm, ⟨42, _⟩ => ⟨S1x1, .i32⟩
  | .hbm, ⟨43, _⟩ => ⟨S2000000x1, .i32⟩
  | .hbm, ⟨44, _⟩ => ⟨S2000000x1, .i1⟩
  | .hbm, ⟨45, _⟩ => ⟨S2000000x1, .i1⟩
  | .hbm, ⟨46, _⟩ => ⟨S_, .i1⟩
  | .hbm, ⟨47, _⟩ => ⟨S2000000, .i1⟩
  | .hbm, ⟨48, _⟩ => ⟨S2000000x3, .f32⟩
  | .hbm, ⟨49, _⟩ => ⟨S2000000x3, .i1⟩
  | .hbm, ⟨50, _⟩ => ⟨S_, .f32⟩
  | .hbm, ⟨51, _⟩ => ⟨S2000000x3, .f32⟩
  | .hbm, ⟨52, _⟩ => ⟨S2000000x3, .f32⟩
  | .hbm, ⟨53, _⟩ => ⟨S_, .i32⟩
  | .hbm, ⟨54, _⟩ => ⟨S2000000, .i32⟩
  | .hbm, ⟨55, _⟩ => ⟨S2000000, .i1⟩
  | .hbm, ⟨56, _⟩ => ⟨S_, .i32⟩
  | .hbm, ⟨57, _⟩ => ⟨S2000000, .i32⟩
  | .hbm, ⟨58, _⟩ => ⟨S2000000, .i32⟩
  | .hbm, ⟨59, _⟩ => ⟨S2000000, .i32⟩
  | .hbm, ⟨60, _⟩ => ⟨S2000000x1, .i32⟩
  | .hbm, ⟨61, _⟩ => ⟨S1, .i32⟩
  | .hbm, ⟨62, _⟩ => ⟨S_, .i32⟩
  | .hbm, ⟨63, _⟩ => ⟨S2000000x1, .i32⟩
  | .hbm, ⟨64, _⟩ => ⟨S2000000x1, .i1⟩
  | .hbm, ⟨65, _⟩ => ⟨S1x1, .i32⟩
  | .hbm, ⟨66, _⟩ => ⟨S2000000x1, .i32⟩
  | .hbm, ⟨67, _⟩ => ⟨S2000000x1, .i1⟩
  | .hbm, ⟨68, _⟩ => ⟨S2000000x1, .i1⟩
  | .hbm, ⟨69, _⟩ => ⟨S_, .i1⟩
  | .hbm, ⟨70, _⟩ => ⟨S2000000, .i1⟩
  | .hbm, ⟨71, _⟩ => ⟨S2000000x3, .f32⟩
  | .hbm, ⟨72, _⟩ => ⟨S2000000x3, .i1⟩
  | .hbm, ⟨73, _⟩ => ⟨S_, .f32⟩
  | .hbm, ⟨74, _⟩ => ⟨S2000000x3, .f32⟩
  | .hbm, ⟨75, _⟩ => ⟨S2000000x3, .f32⟩
  | .hbm, ⟨76, _⟩ => ⟨S2000000x38, .f32⟩
  | .local _ .vmem, ⟨0, _⟩ => ⟨S5000x32, .f32⟩
  | .local _ .vmem, ⟨1, _⟩ => ⟨S5000x32, .f32⟩
  | .local _ .vmem, ⟨2, _⟩ => ⟨S5000x3, .f32⟩
  | .local _ .vmem, ⟨3, _⟩ => ⟨S5000x3, .f32⟩
  | .local _ .vmem, ⟨4, _⟩ => ⟨S5000x3, .f32⟩
  | .local _ .vmem, ⟨5, _⟩ => ⟨S5000x3, .f32⟩
  | .local _ .vmem, ⟨6, _⟩ => ⟨S3, .f32⟩
  | .local _ .vmem, ⟨7, _⟩ => ⟨S5000x38, .f32⟩
  | .local _ .vmem, ⟨8, _⟩ => ⟨S5000x38, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v2 : Ref sig .tc := ⟨.hbm, 75, rfl⟩
abbrev main_v3 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x38 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x32_0 : S2000000.BroadcastsInDim S2000000x32 (![0] : Fin 1 → Fin S2000000x32.rank)
  bcast_S_S2000000x32 : S_.BroadcastsInDim S2000000x32 (![] : Fin 0 → Fin S2000000x32.rank)
  bcast_S2000000_S2000000x3_0 : S2000000.BroadcastsInDim S2000000x3 (![0] : Fin 1 → Fin S2000000x3.rank)
  bcast_S_S2000000x3 : S_.BroadcastsInDim S2000000x3 (![] : Fin 0 → Fin S2000000x3.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S3_S3_0 : ∀ a, (![0] : Fin 1 → Nat) a + S3.size a ≤ S3.size a
  h_S3 : 0 < S3.numel
  shapeCasts_S3_S1x3 : S3.ShapeCasts S1x3
  broadcasts_S1x3_S5000x3 : S1x3.Broadcasts S5000x3
  concatenates_S5000x32_S5000x3_S5000x3_S5000x38_d1 : Shape.Concatenates [S5000x32, S5000x3, S5000x3] S5000x38 1
  inb_S5000x38_S5000x38_0_0 : ∀ a, (![0, 0] : Fin 2 → Nat) a + S5000x38.size a ≤ S5000x38.size a
  h_S5000x38 : 0 < S5000x38.numel
  gather_S2000000x32_S2000000x1_S2000000x32_1_0_n_n_0_1_132_wf : GatherDims.WF S2000000x32 S2000000x1 S2000000x32 [1] [0] [] [0] [] 1 ![1, 32]
  gather_S2000000x3_S2000000x1_S2000000x3_1_0_n_n_0_1_13_wf : GatherDims.WF S2000000x3 S2000000x1 S2000000x3 [1] [0] [] [0] [] 1 ![1, 3]
  gather_S892865x3_S2000000x1_S2000000x3_1_0_n_n_0_1_13_wf : GatherDims.WF S892865x3 S2000000x1 S2000000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S2000000x32.size a
  hwx0_0 : ∀ i : grid0.Coords, EltTy.bits .f32 = 32 ∨ (Rect.block (s := S2000000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S2000000x3.size a
  hwx0_1 : ∀ i : grid0.Coords, EltTy.bits .f32 = 32 ∨ (Rect.block (s := S2000000x3) S5000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x3.size a ≤ S2000000x3.size a
  hwx0_2 : ∀ i : grid0.Coords, EltTy.bits .f32 = 32 ∨ (Rect.block (s := S2000000x3) S5000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3.size a ≤ S3.size a
  hwx0_3 : ∀ i : grid0.Coords, EltTy.bits .f32 = 32 ∨ (Rect.block (s := S3) S3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x38.size a ≤ S2000000x38.size a
  hwx0_4 : ∀ i : grid0.Coords, EltTy.bits .f32 = 32 ∨ (Rect.block (s := S2000000x38) S5000x38.size (cc0_transform_4 i) (hinb0_4 i)).WholeWords (EltTy.packing .f32)

variable [Facts₀]

def gather_S2000000x32_S2000000x1_S2000000x32_1_0_n_n_0_1_132 : GatherDims S2000000x32 S2000000x1 S2000000x32 where
  offsetDims := [1]
  collapsedSliceDims := [0]
  operandBatchingDims := []
  startIndicesBatchingDims := []
  startIndexMap := [0]
  indexVectorDim := 1
  sliceSizes := ![1, 32]
  wf := gather_S2000000x32_S2000000x1_S2000000x32_1_0_n_n_0_1_132_wf
def gather_S2000000x3_S2000000x1_S2000000x3_1_0_n_n_0_1_13 : GatherDims S2000000x3 S2000000x1 S2000000x3 where
  offsetDims := [1]
  collapsedSliceDims := [0]
  operandBatchingDims := []
  startIndicesBatchingDims := []
  startIndexMap := [0]
  indexVectorDim := 1
  sliceSizes := ![1, 3]
  wf := gather_S2000000x3_S2000000x1_S2000000x3_1_0_n_n_0_1_13_wf
def gather_S892865x3_S2000000x1_S2000000x3_1_0_n_n_0_1_13 : GatherDims S892865x3 S2000000x1 S2000000x3 where
  offsetDims := [1]
  collapsedSliceDims := [0]
  operandBatchingDims := []
  startIndicesBatchingDims := []
  startIndexMap := [0]
  indexVectorDim := 1
  sliceSizes := ![1, 3]
  wf := gather_S892865x3_S2000000x1_S2000000x3_1_0_n_n_0_1_13_wf

abbrev win0_0 : Pipeline.Window sig grid0 :=
  Pipeline.Window.ofSpec (Memref.whole main_v0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S5000x38.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S2000000x32 : Shape := ⟨2, ![2000000, 32]⟩
abbrev S892865x3 : Shape := ⟨2, ![892865, 3]⟩
abbrev S3 : Shape := ⟨1, ![3]⟩
abbrev S2000000 : Shape := ⟨1, ![2000000]⟩
abbrev S_ : Shape := ⟨0, ![]⟩
abbrev S2000000x1 : Shape := ⟨2, ![2000000, 1]⟩
abbrev S1 : Shape := ⟨1, ![1]⟩
abbrev S1x1 : Shape := ⟨2, ![1, 1]⟩
abbrev S1x3 : Shape := ⟨2, ![1, 3]⟩
abbrev S2000000x38 : Shape := ⟨2, ![2000000, 38]⟩

abbrev nBuf : Space → Nat
  | .hbm => 81
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S2000000x32, .f32⟩
  | .hbm, ⟨2, _⟩ => ⟨S892865x3, .f32⟩
  | .hbm, ⟨3, _⟩ => ⟨S892865x3, .i32⟩
  | .hbm, ⟨4, _⟩ => ⟨S3, .f32⟩
  | .hbm, ⟨5, _⟩ => ⟨S2000000, .i32⟩
  | .hbm, ⟨6, _⟩ => ⟨S2000000, .i32⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S1, .i32⟩
  | .hbm, ⟨16, _⟩ => ⟨S_, .i32⟩
  | .hbm, ⟨17, _⟩ => ⟨S2000000x1, .i32⟩
  | .hbm, ⟨18, _⟩ => ⟨S2000000x1, .i1⟩
  | .hbm, ⟨19, _⟩ => ⟨S1x1, .i32⟩
  | .hbm, ⟨20, _⟩ => ⟨S2000000x1, .i32⟩
  | .hbm, ⟨21, _⟩ => ⟨S2000000x1, .i1⟩
  | .hbm, ⟨22, _⟩ => ⟨S2000000x1, .i1⟩
  | .hbm, ⟨23, _⟩ => ⟨S_, .i1⟩
  | .hbm, ⟨24, _⟩ => ⟨S2000000, .i1⟩
  | .hbm, ⟨25, _⟩ => ⟨S2000000x32, .f32⟩
  | .hbm, ⟨26, _⟩ => ⟨S2000000x32, .i1⟩
  | .hbm, ⟨27, _⟩ => ⟨S_, .f32⟩
  | .hbm, ⟨28, _⟩ => ⟨S2000000x32, .f32⟩
  | .hbm, ⟨29, _⟩ => ⟨S2000000x32, .f32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S2000000x1, .i32⟩
  | .hbm, ⟨38, _⟩ => ⟨S1, .i32⟩
  | .hbm, ⟨39, _⟩ => ⟨S_, .i32⟩
  | .hbm, ⟨40, _⟩ => ⟨S2000000x1, .i32⟩
  | .hbm, ⟨41, _⟩ => ⟨S2000000x1, .i1⟩
  | .hbm, ⟨42, _⟩ => ⟨S1x1, .i32⟩
  | .hbm, ⟨43, _⟩ => ⟨S2000000x1, .i32⟩
  | .hbm, ⟨44, _⟩ => ⟨S2000000x1, .i1⟩
  | .hbm, ⟨45, _⟩ => ⟨S2000000x1, .i1⟩
  | .hbm, ⟨46, _⟩ => ⟨S_, .i1⟩
  | .hbm, ⟨47, _⟩ => ⟨S2000000, .i1⟩
  | .hbm, ⟨48, _⟩ => ⟨S2000000x3, .f32⟩
  | .hbm, ⟨49, _⟩ => ⟨S2000000x3, .i1⟩
  | .hbm, ⟨50, _⟩ => ⟨S_, .f32⟩
  | .hbm, ⟨51, _⟩ => ⟨S2000000x3, .f32⟩
  | .hbm, ⟨52, _⟩ => ⟨S2000000x3, .f32⟩
  | .hbm, ⟨53, _⟩ => ⟨S_, .i32⟩
  | .hbm, ⟨54, _⟩ => ⟨S2000000, .i32⟩
  | .hbm, ⟨55, _⟩ => ⟨S2000000, .i1⟩
  | .hbm, ⟨56, _⟩ => ⟨S_, .i32⟩
  | .hbm, ⟨57, _⟩ => ⟨S2000000, .i32⟩
  | .hbm, ⟨58, _⟩ => ⟨S2000000, .i32⟩
  | .hbm, ⟨59, _⟩ => ⟨S2000000, .i32⟩
  | .hbm, ⟨60, _⟩ => ⟨S2000000x1, .i32⟩
  | .hbm, ⟨61, _⟩ => ⟨S1, .i32⟩
  | .hbm, ⟨62, _⟩ => ⟨S_, .i32⟩
  | .hbm, ⟨63, _⟩ => ⟨S2000000x1, .i32⟩
  | .hbm, ⟨64, _⟩ => ⟨S2000000x1, .i1⟩
  | .hbm, ⟨65, _⟩ => ⟨S1x1, .i32⟩
  | .hbm, ⟨66, _⟩ => ⟨S2000000x1, .i32⟩
  | .hbm, ⟨67, _⟩ => ⟨S2000000x1, .i1⟩
  | .hbm, ⟨68, _⟩ => ⟨S2000000x1, .i1⟩
  | .hbm, ⟨69, _⟩ => ⟨S_, .i1⟩
  | .hbm, ⟨70, _⟩ => ⟨S2000000, .i1⟩
  | .hbm, ⟨71, _⟩ => ⟨S2000000x3, .f32⟩
  | .hbm, ⟨72, _⟩ => ⟨S2000000x3, .i1⟩
  | .hbm, ⟨73, _⟩ => ⟨S_, .f32⟩
  | .hbm, ⟨74, _⟩ => ⟨S2000000x3, .f32⟩
  | .hbm, ⟨75, _⟩ => ⟨S2000000x3, .f32⟩
  | .hbm, ⟨76, _⟩ => ⟨S2000000x3, .f32⟩
  | .hbm, ⟨77, _⟩ => ⟨S1x3, .f32⟩
  | .hbm, ⟨78, _⟩ => ⟨S2000000x3, .f32⟩
  | .hbm, ⟨79, _⟩ => ⟨S2000000x3, .f32⟩
  | .hbm, ⟨80, _⟩ => ⟨S2000000x38, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_c_1 : Ref sig .tc := ⟨.hbm, 61, rfl⟩
abbrev main_call2_c_2 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_3 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_cst : Ref sig .tc := ⟨.hbm, 73, rfl⟩
abbrev main_call2_v15 : Ref sig .tc := ⟨.hbm, 74, rfl⟩
abbrev main_v2 : Ref sig .tc := ⟨.hbm, 75, rfl⟩
abbrev main_v3 : Ref sig .tc := ⟨.hbm, 76, rfl⟩
abbrev main_v4 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x32_0 : S2000000.BroadcastsInDim S2000000x32 (![0] : Fin 1 → Fin S2000000x32.rank)
  bcast_S_S2000000x32 : S_.BroadcastsInDim S2000000x32 (![] : Fin 0 → Fin S2000000x32.rank)
  bcast_S2000000_S2000000x3_0 : S2000000.BroadcastsInDim S2000000x3 (![0] : Fin 1 → Fin S2000000x3.rank)
  bcast_S_S2000000x3 : S_.BroadcastsInDim S2000000x3 (![] : Fin 0 → Fin S2000000x3.rank)
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  concatenates_S2000000x32_S2000000x3_S2000000x3_S2000000x38_d1 : Shape.Concatenates [S2000000x32, S2000000x3, S2000000x3] S2000000x38 1
  gather_S2000000x32_S2000000x1_S2000000x32_1_0_n_n_0_1_132_wf : GatherDims.WF S2000000x32 S2000000x1 S2000000x32 [1] [0] [] [0] [] 1 ![1, 32]
  gather_S2000000x3_S2000000x1_S2000000x3_1_0_n_n_0_1_13_wf : GatherDims.WF S2000000x3 S2000000x1 S2000000x3 [1] [0] [] [0] [] 1 ![1, 3]
  gather_S892865x3_S2000000x1_S2000000x3_1_0_n_n_0_1_13_wf : GatherDims.WF S892865x3 S2000000x1 S2000000x3 [1] [0] [] [0] [] 1 ![1, 3]

variable [Facts₀]

def gather_S2000000x32_S2000000x1_S2000000x32_1_0_n_n_0_1_132 : GatherDims S2000000x32 S2000000x1 S2000000x32 where
  offsetDims := [1]
  collapsedSliceDims := [0]
  operandBatchingDims := []
  startIndicesBatchingDims := []
  startIndexMap := [0]
  indexVectorDim := 1
  sliceSizes := ![1, 32]
  wf := gather_S2000000x32_S2000000x1_S2000000x32_1_0_n_n_0_1_132_wf
def gather_S2000000x3_S2000000x1_S2000000x3_1_0_n_n_0_1_13 : GatherDims S2000000x3 S2000000x1 S2000000x3 where
  offsetDims := [1]
  collapsedSliceDims := [0]
  operandBatchingDims := []
  startIndicesBatchingDims := []
  startIndexMap := [0]
  indexVectorDim := 1
  sliceSizes := ![1, 3]
  wf := gather_S2000000x3_S2000000x1_S2000000x3_1_0_n_n_0_1_13_wf
def gather_S892865x3_S2000000x1_S2000000x3_1_0_n_n_0_1_13 : GatherDims S892865x3 S2000000x1 S2000000x3 where
  offsetDims := [1]
  collapsedSliceDims := [0]
  operandBatchingDims := []
  startIndicesBatchingDims := []
  startIndexMap := [0]
  indexVectorDim := 1
  sliceSizes := ![1, 3]
  wf := gather_S892865x3_S2000000x1_S2000000x3_1_0_n_n_0_1_13_wf

class Facts : Prop extends Facts₀ where

variable [Facts]
-- ==== Proof.Grouped.lean ====
/-
  The arithmetic of the grouped point features, as one function of whole arrays.

  A point set of `n` rows carries, per row, 32 feature channels `f`, a position `x` (3 coordinates) and the centre
  `q` (3 coordinates) of the pillar the row belongs to; `p` (3 coordinates) is the origin of the point cloud's range.
  The grouped features of a row are the 38 numbers
      f₀ … f₃₁,   x₀ + p₀, x₁ + p₁, x₂ + p₂,   x₀ - q₀, x₁ - q₁, x₂ - q₂ :
  the features unchanged, the position moved to absolute coordinates, and the position relative to the pillar centre.
  `grouped f x q p` is that array, index by index, over the extended reals.

  Two facts about it are proved here, for any number of rows:
   * laying `f`, `x + b` and `x - q` side by side along the column axis gives `grouped f x q p` as soon as every row of
     `b` is `p` (`concat_eq_grouped`): column `c < 32` falls in the first piece, `32 ≤ c < 35` in the second at `c - 32`,
     `35 ≤ c` in the third at `c - 35`;
   * a row of `grouped` depends only on the same row of `f`, `x`, `q` (`groupedAt_congr`), so a block of consecutive rows of
     the grouped array is the grouped array of the corresponding blocks.
-/
import Idealize.ShloMosaic.Lib.ValueIdx
import Idealize.ShloMosaic.Lib.ValueLayout
import Idealize.ShloMosaic.Lib.Pipeline.Value

noncomputable section

namespace Cert.PillarGroup

open Idealize.ShloMosaic Idealize.ShloMosaic.ValueIdx

/-- Row `r`, column `c` of the grouped features: a feature channel, a coordinate of `x + p`, or a coordinate of `x - q`. -/
def groupedAt {n : Nat} (f : FVec Ideal ⟨2, ![n, 32]⟩ .f32) (x q : FVec Ideal ⟨2, ![n, 3]⟩ .f32)
    (p : FVec Ideal ⟨1, ![3]⟩ .f32) (r : Fin n) (c : Fin 38) : EReal :=
  if h : c.val < 32 then f (ix2 r ⟨c.val, h⟩)
  else if h' : c.val < 35 then x (ix2 r ⟨c.val - 32, by omega⟩) + p (ix1 ⟨c.val - 32, by omega⟩)
  else x (ix2 r ⟨c.val - 35, by omega⟩) - q (ix2 r ⟨c.val - 35, by omega⟩)

/-- The grouped features as an `n × 38` array. -/
def grouped {n : Nat} (f : FVec Ideal ⟨2, ![n, 32]⟩ .f32) (x q : FVec Ideal ⟨2, ![n, 3]⟩ .f32)
    (p : FVec Ideal ⟨1, ![3]⟩ .f32) : FVec Ideal ⟨2, ![n, 38]⟩ .f32 :=
  fun j => groupedAt f x q p (j 0) (j 1)

theorem grouped_ix2 {n : Nat} (f : FVec Ideal ⟨2, ![n, 32]⟩ .f32) (x q : FVec Ideal ⟨2, ![n, 3]⟩ .f32)
    (p : FVec Ideal ⟨1, ![3]⟩ .f32) (r : Fin n) (c : Fin 38) : grouped f x q p (ix2 r c) = groupedAt f x q p r c := rfl

/-- A row of the grouped features is a function of that row of the three arrays only. -/
theorem groupedAt_congr {n N : Nat} {f : FVec Ideal ⟨2, ![n, 32]⟩ .f32} {g : FVec Ideal ⟨2, ![N, 32]⟩ .f32}
    {x q : FVec Ideal ⟨2, ![n, 3]⟩ .f32} {y s : FVec Ideal ⟨2, ![N, 3]⟩ .f32} {p o : FVec Ideal ⟨1, ![3]⟩ .f32}
    (r : Fin n) (R : Fin N)
    (hf : ∀ c : Fin 32, f (ix2 r c) = g (ix2 R c)) (hx : ∀ c : Fin 3, x (ix2 r c) = y (ix2 R c))
    (hq : ∀ c : Fin 3, q (ix2 r c) = s (ix2 R c)) (hp : ∀ c : Fin 3, p (ix1 c) = o (ix1 c)) (c : Fin 38) :
    groupedAt f x q p r c = groupedAt g y s o R c := by
  unfold groupedAt
  by_cases h1 : c.val < 32
  · rw [dif_pos h1, dif_pos h1]; exact hf _
  · rw [dif_neg h1, dif_neg h1]
    by_cases h2 : c.val < 35
    · rw [dif_pos h2, dif_pos h2, hx, hp]
    · rw [dif_neg h2, dif_neg h2, hx, hq]

/-- The three pieces laid side by side along the columns are the grouped features, when every row of `b` is `p`. -/
theorem concat_eq_grouped {n : Nat} (f : FVec Ideal ⟨2, ![n, 32]⟩ .f32) (x q b : FVec Ideal ⟨2, ![n, 3]⟩ .f32)
    (p : FVec Ideal ⟨1, ![3]⟩ .f32) (hb : ∀ (r : Fin n) (c : Fin 3), b (ix2 r c) = p (ix1 c))
    (h : Shape.Concatenates [(⟨2, ![n, 32]⟩ : Shape), ⟨2, ![n, 3]⟩, ⟨2, ![n, 3]⟩] ⟨2, ![n, 38]⟩ 1) :
    concatenate (⟨2, ![n, 38]⟩ : Shape) 1 [⟨⟨2, ![n, 32]⟩, f⟩, ⟨⟨2, ![n, 3]⟩, addf x b⟩, ⟨⟨2, ![n, 3]⟩, subf x q⟩] h
      = grouped f x q p := by
  funext j
  obtain ⟨r, c, rfl⟩ : ∃ (r : Fin n) (c : Fin 38), j = ix2 r c := ⟨j 0, j 1, eq_ix2 j⟩
  rw [grouped_ix2]
  unfold groupedAt
  by_cases h1 : c.val < 32
  · rw [dif_pos h1]
    refine concatenate_apply_piece (t := ⟨2, ![n, 38]⟩) (1 : Fin 2) [⟨⟨2, ![n, 32]⟩, f⟩, ⟨⟨2, ![n, 3]⟩, addf x b⟩, ⟨⟨2, ![n, 3]⟩, subf x q⟩] h (ix2 r c) 0
      (by show (0 : Nat) < 3; omega) ⟨2, ![n, 32]⟩ f rfl rfl 0 rfl
      (ix2 r ⟨c.val, h1⟩) (fun b hb => ?_) ?_
    · match b with
      | ⟨0, _⟩ => rfl
      | ⟨1, _⟩ => exact absurd (Fin.ext rfl) hb
    · show 0 + c.val = c.val
      omega
  · rw [dif_neg h1]
    by_cases h2 : c.val < 35
    · rw [dif_pos h2, ← hb r ⟨c.val - 32, by omega⟩, ← addf_apply]
      refine concatenate_apply_piece (t := ⟨2, ![n, 38]⟩) (1 : Fin 2) [⟨⟨2, ![n, 32]⟩, f⟩, ⟨⟨2, ![n, 3]⟩, addf x b⟩, ⟨⟨2, ![n, 3]⟩, subf x q⟩] h (ix2 r c) 1
        (by show (1 : Nat) < 3; omega) ⟨2, ![n, 3]⟩ (addf x b) rfl rfl 32 rfl
        (ix2 r ⟨c.val - 32, by omega⟩) (fun b hb => ?_) ?_
      · match b with
        | ⟨0, _⟩ => rfl
        | ⟨1, _⟩ => exact absurd (Fin.ext rfl) hb
      · show 32 + (c.val - 32) = c.val
        omega
    · rw [dif_neg h2, ← subf_apply]
      refine concatenate_apply_piece (t := ⟨2, ![n, 38]⟩) (1 : Fin 2) [⟨⟨2, ![n, 32]⟩, f⟩, ⟨⟨2, ![n, 3]⟩, addf x b⟩, ⟨⟨2, ![n, 3]⟩, subf x q⟩] h (ix2 r c) 2
        (by show (2 : Nat) < 3; omega) ⟨2, ![n, 3]⟩ (subf x q) rfl rfl 35 rfl
        (ix2 r ⟨c.val - 35, by omega⟩) (fun b hb => ?_) ?_
      · match b with
        | ⟨0, _⟩ => rfl
        | ⟨1, _⟩ => exact absurd (Fin.ext rfl) hb
      · show 35 + (c.val - 35) = c.val
        have := c.isLt
        omega

end Cert.PillarGroup

end
-- ==== Proof.KernelBlocks.lean ====
/-
  The kernel's result array, from its blocks.

  The pipeline walks 400 grid points; at point `t` the body loads rows `5000 t … 5000 t + 4999` of the three row
  tables it is given (32 feature channels, 3 position coordinates, 3 pillar-centre coordinates) and the whole 3-vector
  of the range origin, and stores `grouped` of those four blocks into rows `5000 t … 5000 t + 4999` of the result.
  Since a row of `grouped` is a function of the same row of its arguments, what point `t` writes back is block `t` of
  `grouped` of the WHOLE tables; the 400 blocks tile the 2 000 000 rows, so the result array ends as `grouped` of the
  tables as the region finds them.
-/
import proofs.«178524_j17884243821424_2_alg».proof.Proof.Gen.KernelIdeal.Value
import proofs.«178524_j17884243821424_2_alg».proof.Proof.Grouped

noncomputable section

namespace Cert.KernelIdeal.Blocks

open Cert.KernelIdeal Cert.KernelIdeal.Gen Idealize.ShloMosaic Idealize.ShloMosaic.TcCoe Idealize.SL.Sem
open Idealize.ShloMosaic.ValueIdx Cert.PillarGroup
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- What the body stores is `grouped` of the four blocks it loads: the casts to the same shape are the identity, the
    origin cast to one row and repeated over the 5000 rows has the origin in every row, and the three pieces are laid
    side by side. -/
theorem payload_eq (v0 : Vec Ideal S5000x32 .f32) (v2 v4 : Vec Ideal S5000x3 .f32) (v6 : Vec Ideal S3 .f32) :
    k0_pay1 v0 v2 v4 v6 = grouped v0 v2 v4 v6 := by
  unfold k0_pay1
  rw [shapeCast_self v0, shapeCast_self v2, shapeCast_self v4]
  exact concat_eq_grouped v0 v2 v4 _ v6
    (fun r c => (broadcastTo_1b_ab_apply _ _ r c).trans (shapeCast_a_1a_apply v6 _ 0 c)) _

/-- The block indices of the five windows at grid point `t`: the row tables and the result move with the point, one
    block of 5000 rows per point; the origin stays. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

theorem points : cfg0.N = 400 := N_0

/-- Row `r` of the feature window's block at point `t`, read off any array `A`, is row `5000 t + r` of `A`. -/
theorem feat_block (A : Vec Ideal S2000000x32 .f32) (t : Fin cfg0.N) (r : Fin 5000) (k : Fin 32) (R : Fin 2000000)
    (hR : R.val = 5000 * t.val + r.val) :
    ((cfg0.win 0).blk t).view.read (Elt Ideal) A (ix2 r k) = A (ix2 R k) := by
  obtain ⟨e0, e1, -⟩ := block_index t
  rw [View.read_apply]
  show A _ = A _
  refine congrArg A ?_
  funext a
  apply Fin.ext
  match a with
  | ⟨0, _⟩ => show win0_0.index t (0 : Fin 2) * 5000 + 1 * r.val = R.val; rw [e0, hR]; omega
  | ⟨1, _⟩ => show win0_0.index t (1 : Fin 2) * 32 + 1 * k.val = k.val; rw [e1]; omega

/-- Row `r` of the position window's block at point `t` is row `5000 t + r` of the array. -/
theorem pos_block (A : Vec Ideal S2000000x3 .f32) (t : Fin cfg0.N) (r : Fin 5000) (k : Fin 3) (R : Fin 2000000)
    (hR : R.val = 5000 * t.val + r.val) :
    ((cfg0.win 1).blk t).view.read (Elt Ideal) A (ix2 r k) = A (ix2 R k) := by
  obtain ⟨-, -, e0, e1, -⟩ := block_index t
  rw [View.read_apply]
  show A _ = A _
  refine congrArg A ?_
  funext a
  apply Fin.ext
  match a with
  | ⟨0, _⟩ => show win0_1.index t (0 : Fin 2) * 5000 + 1 * r.val = R.val; rw [e0, hR]; omega
  | ⟨1, _⟩ => show win0_1.index t (1 : Fin 2) * 3 + 1 * k.val = k.val; rw [e1]; omega

/-- Row `r` of the centre window's block at point `t` is row `5000 t + r` of the array. -/
theorem centre_block (A : Vec Ideal S2000000x3 .f32) (t : Fin cfg0.N) (r : Fin 5000) (k : Fin 3) (R : Fin 2000000)
    (hR : R.val = 5000 * t.val + r.val) :
    ((cfg0.win 2).blk t).view.read (Elt Ideal) A (ix2 r k) = A (ix2 R k) := by
  obtain ⟨-, -, -, -, e0, e1, -⟩ := block_index t
  rw [View.read_apply]
  show A _ = A _
  refine congrArg A ?_
  funext a
  apply Fin.ext
  match a with
  | ⟨0, _⟩ => show win0_2.index t (0 : Fin 2) * 5000 + 1 * r.val = R.val; rw [e0, hR]; omega
  | ⟨1, _⟩ => show win0_2.index t (1 : Fin 2) * 3 + 1 * k.val = k.val; rw [e1]; omega

/-- The origin window's block at every point is the whole 3-vector. -/
theorem origin_block (A : Vec Ideal S3 .f32) (t : Fin cfg0.N) (k : Fin 3) :
    ((cfg0.win 3).blk t).view.read (Elt Ideal) A (ix1 k) = A (ix1 k) := by
  obtain ⟨-, -, -, -, -, -, e0, -⟩ := block_index t
  rw [View.read_apply]
  show A _ = A _
  refine congrArg A ?_
  funext a
  apply Fin.ext
  match a with
  | ⟨0, _⟩ => show win0_3.index t (0 : Fin 1) * 3 + 1 * k.val = k.val; rw [e0]; omega

/-- `grouped` of the four windows' blocks at point `t` of any four arrays is the result window's block at `t` of
    `grouped` of the arrays: row `r` of the one is row `5000 t + r` of the other. -/
theorem grouped_block (A0 : Vec Ideal S2000000x32 .f32) (A1 A2 : Vec Ideal S2000000x3 .f32) (A3 : Vec Ideal S3 .f32)
    (t : Fin cfg0.N) :
    (cfg0.win 4).cut (grid0.coords t)
        (grouped (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (grouped A0 A1 A2 A3) := by
  obtain ⟨-, -, -, -, -, -, -, e0, e1⟩ := block_index t
  have ht : t.val < 400 := lt_of_lt_of_eq t.isLt points
  funext y
  have hy0 : (y 0).val < 5000 := (y 0).isLt
  have hy1 : (y 1).val < 38 := (y 1).isLt
  have hemb : ((cfg0.win 4).blk t).view.emb y
      = ix2 (⟨5000 * t.val + (y 0).val, by omega⟩ : Fin 2000000) (⟨(y 1).val, hy1⟩ : Fin 38) := by
    funext a
    apply Fin.ext
    match a with
    | ⟨0, _⟩ => show win0_4.index t (0 : Fin 2) * 5000 + 1 * (y 0).val = 5000 * t.val + (y 0).val; rw [e0]; omega
    | ⟨1, _⟩ => show win0_4.index t (1 : Fin 2) * 38 + 1 * (y 1).val = (y 1).val; rw [e1]; omega
  rw [View.read_apply, hemb]
  show groupedAt (((cfg0.win 0).blk t).view.read (Elt Ideal) A0) (((cfg0.win 1).blk t).view.read (Elt Ideal) A1)
        (((cfg0.win 2).blk t).view.read (Elt Ideal) A2) (((cfg0.win 3).blk t).view.read (Elt Ideal) A3)
        ⟨(y 0).val, hy0⟩ ⟨(y 1).val, hy1⟩
      = groupedAt A0 A1 A2 A3 ⟨5000 * t.val + (y 0).val, by omega⟩ ⟨(y 1).val, hy1⟩
  exact groupedAt_congr _ _ (fun k => feat_block A0 t _ k _ rfl) (fun k => pos_block A1 t _ k _ rfl)
    (fun k => centre_block A2 t _ k _ rfl) (fun k => origin_block A3 t k) _

/-- What point `t` writes back is block `t` of `grouped` of the four arrays as the region finds them. -/
theorem flushed_eq (c : Dev nD) (t : Fin cfg0.N) :
    (dats m 0 c).flushed 4 t = ((cfg0.win 4).blk t).view.read (Elt Ideal)
      (grouped (V m c (Pipeline.arrRef spec0 0)) (V m c (Pipeline.arrRef spec0 1)) (V m c (Pipeline.arrRef spec0 2))
        (V m c (Pipeline.arrRef spec0 3))) := by
  rw [Value.flushed4]
  unfold out0_4
  rw [View.canon_unit_zero zero2]
  simp only [View.ld_unit_zero (S := S5000x32) zero2, View.ld_unit_zero (S := S5000x3) zero2,
    View.ld_unit_zero (S := S3) zero1]
  rw [payload_eq]
  exact grouped_block (V m c (Pipeline.arrRef spec0 0)) (V m c (Pipeline.arrRef spec0 1))
    (V m c (Pipeline.arrRef spec0 2)) (V m c (Pipeline.arrRef spec0 3)) t

/-- An index of the result is in point `t`'s block iff each coordinate is in the block's range on its axis. -/
theorem mem_block (t : Fin cfg0.N) (i : S2000000x38.Idx) :
    i ∈ ((cfg0.win 4).blk t).view.set ↔ ∀ a : Fin 2, win0_4.index t a * S5000x38.size a ≤ (i a).val
      ∧ (i a).val < win0_4.index t a * S5000x38.size a + S5000x38.size a := by
  show i ∈ ((View.whole main_v3).slice (win0_4.rect t)).set ↔ _
  rw [View.set_slice_whole, Rect.mem_set_unit]
  exact Iff.rfl

/-- Row `R` of the result lies in the block of point `R / 5000`: the 400 blocks tile the rows. -/
theorem covered (i : S2000000x38.Idx) :
    ∃ t : Fin cfg0.N, (cfg0.win 4).flush t = true ∧ i ∈ ((cfg0.win 4).blk t).view.set := by
  have h0 : (i 0).val < 2000000 := (i 0).isLt
  have h1 : (i 1).val < 38 := (i 1).isLt
  have hN : cfg0.N = 400 := points
  refine ⟨⟨(i 0).val / 5000, by rw [hN]; omega⟩, flush0_4 _, ?_⟩
  obtain ⟨-, -, -, -, -, -, -, e0, e1⟩ := block_index ⟨(i 0).val / 5000, by rw [hN]; omega⟩
  rw [mem_block]
  intro a
  match a with
  | ⟨0, _⟩ =>
    show win0_4.index _ (0 : Fin 2) * 5000 ≤ (i 0).val ∧ (i 0).val < win0_4.index _ (0 : Fin 2) * 5000 + 5000
    rw [e0]
    show (i 0).val / 5000 * 5000 ≤ (i 0).val ∧ (i 0).val < (i 0).val / 5000 * 5000 + 5000
    omega
  | ⟨1, _⟩ =>
    show win0_4.index _ (1 : Fin 2) * 38 ≤ (i 1).val ∧ (i 1).val < win0_4.index _ (1 : Fin 2) * 38 + 38
    rw [e1]
    omega

/-- The result array after the run is `grouped` of the tables as the region finds them. -/
theorem final (c : Dev nD) : (dats m 0 c).arrAt 4 cfg0.N
    = grouped (V m c (Pipeline.arrRef spec0 0)) (V m c (Pipeline.arrRef spec0 1)) (V m c (Pipeline.arrRef spec0 2))
        (V m c (Pipeline.arrRef spec0 3)) :=
  (dats m 0 c).arrAt_eq_of_cover 4 _ (fun t _ => flushed_eq m c t) covered

end Cert.KernelIdeal.Blocks

end
-- ==== Proof.Takes.lean ====
/-
  Selecting rows of a table by a list of row numbers, as the host computes it (`jnp.take` along the rows, out-of-range
  numbers filled with the not-a-number word).

  For a table of `n` rows and a list `i` of 2 000 000 row numbers:
   * `start n i`    a negative number counts from the end: `i < 0 ? i + n : i`, laid out as a column of start indices;
   * `inRange l s`  the start index is a row of the table: `0 ≤ s ∧ s ≤ l` with `l = n - 1`;
   * the selected rows are the gathered rows where the start index is in range, and the fill word elsewhere.
  The three selections the programs make: `featRows` (the 32 feature channels of the points, by the point numbers),
  `posRows` (the 3 coordinates of the points, by the point numbers) and `centreRows` (the 3 coordinates of the
  892 865 pillar centres, by the pillar numbers). Both programs compute exactly these, operation by operation; nothing
  here looks inside the gather.
-/
import proofs.«178524_j17884243821424_2_alg».proof.Proof.Gen.KernelIdeal

noncomputable section

namespace Cert.KernelIdeal.Rows

open Cert.KernelIdeal Cert.KernelIdeal.Gen Idealize.ShloMosaic

variable {F : FTy → Type} [FloatOps F]

/-- The row numbers as start indices: a negative one counts from the end of a table of `n` rows. -/
def start (n : BitVec 32) (i : IVec S2000000 32) : IVec S2000000x1 32 :=
  broadcastInDim S2000000x1 ![0] bcast_S2000000_S2000000x1_0
    (select (cmpi .slt i (broadcastInDim S2000000 ![] bcast_S_S2000000 (constantI S_ 32 0#32)))
      (addi i (broadcastInDim S2000000 ![] bcast_S_S2000000 (constantI S_ 32 n))) i)

/-- Whether each start index is a row of the table: `0 ≤ s` and `s ≤ last`. -/
def inRange (last : BitVec 32) (s : IVec S2000000x1 32) : IVec S2000000 1 :=
  Host.reduce IntOp.andi
    (andi (cmpi .sge s (broadcastInDim S2000000x1 ![] bcast_S_S2000000x1 (constantI S_ 32 0#32)))
      (cmpi .sle s (broadcastInDim S2000000x1 ![0, 1] bcast_S1x1_S2000000x1_0_1
        (broadcastInDim S1x1 ![1] bcast_S1_S1x1_1 (constantI S1 32 last)))))
    (constantI S_ 1 1#1) reducesTo_S2000000x1_S2000000_d1 h_S_

/-- The feature rows of the points `i`. -/
def featRows (x : FVec F S2000000x32 .f32) (i : IVec S2000000 32) : FVec F S2000000x32 .f32 :=
  select (broadcastInDim S2000000x32 ![0] bcast_S2000000_S2000000x32_0 (inRange 1999999#32 (start 2000000#32 i)))
    (Host.gather gather_S2000000x32_S2000000x1_S2000000x32_1_0_n_n_0_1_132 x (start 2000000#32 i))
    (broadcastInDim S2000000x32 ![] bcast_S_S2000000x32 (constant (F := F) S_ .f32 0x7FC00000#32))

/-- The position rows of the points `i`. -/
def posRows (x : FVec F S2000000x3 .f32) (i : IVec S2000000 32) : FVec F S2000000x3 .f32 :=
  select (broadcastInDim S2000000x3 ![0] bcast_S2000000_S2000000x3_0 (inRange 1999999#32 (start 2000000#32 i)))
    (Host.gather gather_S2000000x3_S2000000x1_S2000000x3_1_0_n_n_0_1_13 x (start 2000000#32 i))
    (broadcastInDim S2000000x3 ![] bcast_S_S2000000x3 (constant (F := F) S_ .f32 0x7FC00000#32))

/-- The centre rows of the pillars `i`. -/
def centreRows (x : FVec F S892865x3 .f32) (i : IVec S2000000 32) : FVec F S2000000x3 .f32 :=
  select (broadcastInDim S2000000x3 ![0] bcast_S2000000_S2000000x3_0 (inRange 892864#32 (start 892865#32 i)))
    (Host.gather gather_S892865x3_S2000000x1_S2000000x3_1_0_n_n_0_1_13 x (start 892865#32 i))
    (broadcastInDim S2000000x3 ![] bcast_S_S2000000x3 (constant (F := F) S_ .f32 0x7FC00000#32))

end Cert.KernelIdeal.Rows

end
-- ==== Proof.LibTypedRead.lean ====
/-
  Typed reads of a line of host operations (a general lemma file; nothing here mentions a particular program).

  A host operation built over TYPED references (`TRef sig T`: a buffer reference that carries the type `T` of the tensor
  value it holds) stores its result through a transport along the reference's type equation, and reads its operands
  back through the inverse transport. Read at the value's type, the transports cancel:

      get y W := the contents of `y`'s buffer under the valuation `W`, at the type `T` that `y` carries.

  After a typed operation the typed read of its result is the operation's function of the typed reads of its operands
  (`get_nullary` … `get_ternary`), and the typed read of any other reference is what it was (`get_…_ne`). Rewriting
  with these walks a line of operations from its last to its first without ever meeting a transport, so the composed
  term that is left is the plain composition of the operations' functions. `eq_toBuf_of_get` goes back from a typed
  read to the raw contents of the buffer.
-/
import Idealize.ShloMosaic.Lib.StableHlo.Run

noncomputable section

namespace Cert.TypedRead

open Idealize.ShloMosaic Idealize.ShloMosaic.StableHlo

variable {τ : Topo} {sig : RefSig} {Val : EltTy → Type} {T Tx Ta Tb Tc Ty : BufTy}

/-- The contents of a typed reference's buffer under a valuation, at the type the reference carries. -/
def get (x : TRef sig T) (W : Valuation τ sig Val) : T.Contents Val := x.ofBuf (W (Proc.devRef .tc x.ref))

/-- Transport to the buffer's type and back is the identity. -/
theorem ofBuf_toBuf (x : TRef sig T) (v : T.Contents Val) : x.ofBuf (x.toBuf v) = v := by
  obtain ⟨r, h, h1, h2⟩ := x
  subst h
  rfl

/-- Transport to the value's type and back is the identity. -/
theorem toBuf_ofBuf (x : TRef sig T) (v : x.ref.ty.Contents Val) : x.toBuf (x.ofBuf v) = v := by
  obtain ⟨r, h, h1, h2⟩ := x
  subst h
  rfl

/-- The raw contents of a buffer whose typed read is `t`. -/
theorem eq_toBuf_of_get (x : TRef sig T) (W : Valuation τ sig Val) (t : T.Contents Val) (h : get x W = t) :
    W (Proc.devRef .tc x.ref) = x.toBuf t := by
  subst h
  exact (toBuf_ofBuf x _).symm

/-! ## The result of a typed operation, read at its type -/

theorem get_nullary (y : TRef sig Ty) (v : Ty.Contents Val) (W : Valuation τ sig Val) :
    get y ((TRef.nullary y v : HloOp τ sig Val).result W) = v :=
  (congrArg y.ofBuf (nullary_result y.ref (y.toBuf v) y.dev W)).trans (ofBuf_toBuf y v)

theorem get_unary (x : TRef sig Tx) (y : TRef sig Ty) (f : Tx.Contents Val → Ty.Contents Val) (W : Valuation τ sig Val) :
    get y ((TRef.unary x y f : HloOp τ sig Val).result W) = f (get x W) :=
  (congrArg y.ofBuf (unary_result x.ref y.ref (fun u => y.toBuf (f (x.ofBuf u))) x.dev y.dev W)).trans (ofBuf_toBuf y _)

theorem get_binary (a : TRef sig Ta) (b : TRef sig Tb) (y : TRef sig Ty)
    (f : Ta.Contents Val → Tb.Contents Val → Ty.Contents Val) (W : Valuation τ sig Val) :
    get y ((TRef.binary a b y f : HloOp τ sig Val).result W) = f (get a W) (get b W) :=
  (congrArg y.ofBuf (binary_result a.ref b.ref y.ref (fun u v => y.toBuf (f (a.ofBuf u) (b.ofBuf v))) a.dev b.dev y.dev W)).trans
    (ofBuf_toBuf y _)

theorem get_ternary (c : TRef sig Tc) (a : TRef sig Ta) (b : TRef sig Tb) (y : TRef sig Ty)
    (f : Tc.Contents Val → Ta.Contents Val → Tb.Contents Val → Ty.Contents Val) (W : Valuation τ sig Val) :
    get y ((TRef.ternary c a b y f : HloOp τ sig Val).result W) = f (get c W) (get a W) (get b W) :=
  (congrArg y.ofBuf (ternary_result c.ref a.ref b.ref y.ref
    (fun w u v => y.toBuf (f (c.ofBuf w) (a.ofBuf u) (b.ofBuf v))) c.dev a.dev b.dev y.dev W)).trans (ofBuf_toBuf y _)

/-! ## Any other reference keeps its typed read -/

theorem get_nullary_ne (y : TRef sig Ty) (v : Ty.Contents Val) (W : Valuation τ sig Val) (z : TRef sig T)
    (h : z.ref ≠ y.ref) : get z ((TRef.nullary y v : HloOp τ sig Val).result W) = get z W :=
  congrArg z.ofBuf (nullary_result_ne (y := y.ref) (y.toBuf v) y.dev W h)

theorem get_unary_ne (x : TRef sig Tx) (y : TRef sig Ty) (f : Tx.Contents Val → Ty.Contents Val) (W : Valuation τ sig Val)
    (z : TRef sig T) (h : z.ref ≠ y.ref) : get z ((TRef.unary x y f : HloOp τ sig Val).result W) = get z W :=
  congrArg z.ofBuf (unary_result_ne (x := x.ref) (y := y.ref) (fun u => y.toBuf (f (x.ofBuf u))) x.dev y.dev W h)

theorem get_binary_ne (a : TRef sig Ta) (b : TRef sig Tb) (y : TRef sig Ty)
    (f : Ta.Contents Val → Tb.Contents Val → Ty.Contents Val) (W : Valuation τ sig Val) (z : TRef sig T)
    (h : z.ref ≠ y.ref) : get z ((TRef.binary a b y f : HloOp τ sig Val).result W) = get z W :=
  congrArg z.ofBuf (binary_result_ne (a := a.ref) (b := b.ref) (y := y.ref)
    (fun u v => y.toBuf (f (a.ofBuf u) (b.ofBuf v))) a.dev b.dev y.dev W h)

theorem get_ternary_ne (c : TRef sig Tc) (a : TRef sig Ta) (b : TRef sig Tb) (y : TRef sig Ty)
    (f : Tc.Contents Val → Ta.Contents Val → Tb.Contents Val → Ty.Contents Val) (W : Valuation τ sig Val) (z : TRef sig T)
    (h : z.ref ≠ y.ref) : get z ((TRef.ternary c a b y f : HloOp τ sig Val).result W) = get z W :=
  congrArg z.ofBuf (ternary_result_ne (c := c.ref) (a := a.ref) (b := b.ref) (y := y.ref)
    (fun w u v => y.toBuf (f (c.ofBuf w) (a.ofBuf u) (b.ofBuf v))) c.dev a.dev b.dev y.dev W h)

/-! ## An operation over a literal family of three references

(the library states the four-operand form, `nary4_result`; a concatenation of three pieces needs this one) -/

/-- The result of an operation over the literal family `![x, a, b]`, each operand's contents at its own reference. -/
theorem nary3_result {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

end Cert.TypedRead

end
-- ==== Proof.KernelEntry.lean ====
/-
  The three row tables as the kernel's region finds them.

  Before the region the host selects rows three times: the feature rows and the position rows of the points by the point
  numbers, and the centre rows of the pillars by the pillar numbers. Each selection is twenty-three host operations over
  typed buffer references; read back in order at the values' types they are the terms `featRows`, `posRows`,
  `centreRows` of the argument arrays as launched.
-/
import proofs.«178524_j17884243821424_2_alg».proof.Proof.Gen.KernelIdeal.Frame
import proofs.«178524_j17884243821424_2_alg».proof.Proof.Takes
import proofs.«178524_j17884243821424_2_alg».proof.Proof.LibTypedRead
import Idealize.ShloMosaic.Lib.StableHlo.Run

noncomputable section

namespace Cert.KernelIdeal.Entry

open Cert.KernelIdeal Cert.KernelIdeal.Gen Cert.KernelIdeal.Rows Cert.TypedRead
open Idealize.ShloMosaic Idealize.ShloMosaic.TcCoe Idealize.SL.Sem Idealize.ShloMosaic.StableHlo

variable {F : FTy → Type} [FloatOps F]

/-- The feature table after the three selections, read at its type: the feature rows of the points. -/
theorem feat_get (W : Valuation τ sig (Elt F)) :
    get (TRef.of main_v0 : TRef sig ⟨S2000000x32, .f32⟩) (after (List.flatten [hostOps0, hostOps0_1, hostOps0_2]) W)
      = featRows (get (TRef.of main_arg1 : TRef sig ⟨S2000000x32, .f32⟩) W)
          (get (TRef.of main_arg5 : TRef sig ⟨S2000000, .i32⟩) W) := by
  simp only [hostOps0, hostOps0_1, hostOps0_2, List.flatten_cons, List.flatten_nil, List.append_nil, List.cons_append,
    List.nil_append, after_cons, after_nil]
  simp (disch := decide) only [get_nullary, get_unary, get_binary, get_ternary, get_nullary_ne, get_unary_ne,
    get_binary_ne, get_ternary_ne]
  rfl

/-- The position table after the three selections, read at its type: the position rows of the points. -/
theorem pos_get (W : Valuation τ sig (Elt F)) :
    get (TRef.of main_v1 : TRef sig ⟨S2000000x3, .f32⟩) (after (List.flatten [hostOps0, hostOps0_1, hostOps0_2]) W)
      = posRows (get (TRef.of main_arg0 : TRef sig ⟨S2000000x3, .f32⟩) W)
          (get (TRef.of main_arg5 : TRef sig ⟨S2000000, .i32⟩) W) := by
  simp only [hostOps0, hostOps0_1, hostOps0_2, List.flatten_cons, List.flatten_nil, List.append_nil, List.cons_append,
    List.nil_append, after_cons, after_nil]
  simp (disch := decide) only [get_nullary, get_unary, get_binary, get_ternary, get_nullary_ne, get_unary_ne,
    get_binary_ne, get_ternary_ne]
  rfl

/-- The centre table after the three selections, read at its type: the centre rows of the pillars. -/
theorem centre_get (W : Valuation τ sig (Elt F)) :
    get (TRef.of main_v2 : TRef sig ⟨S2000000x3, .f32⟩) (after (List.flatten [hostOps0, hostOps0_1, hostOps0_2]) W)
      = centreRows (get (TRef.of main_arg2 : TRef sig ⟨S892865x3, .f32⟩) W)
          (get (TRef.of main_arg6 : TRef sig ⟨S2000000, .i32⟩) W) := by
  simp only [hostOps0, hostOps0_1, hostOps0_2, List.flatten_cons, List.flatten_nil, List.append_nil, List.cons_append,
    List.nil_append, after_cons, after_nil]
  simp (disch := decide) only [get_nullary, get_unary, get_binary, get_ternary, get_nullary_ne, get_unary_ne,
    get_binary_ne, get_ternary_ne]
  rfl

/-! ## From the typed reads to the buffers' contents

At a literal reference the transports are along equations that hold by computation, so each is the identity on any
value. -/

variable (m : (ℓ : Loc nD τ sig) → Buf (Elt F) ℓ)

theorem to_v0 (t : FVec F S2000000x32 .f32) : (TRef.of main_v0 : TRef sig ⟨S2000000x32, .f32⟩).toBuf (Val := Elt F) t = t := rfl
theorem to_v1 (t : FVec F S2000000x3 .f32) : (TRef.of main_v1 : TRef sig ⟨S2000000x3, .f32⟩).toBuf (Val := Elt F) t = t := rfl
theorem to_v2 (t : FVec F S2000000x3 .f32) : (TRef.of main_v2 : TRef sig ⟨S2000000x3, .f32⟩).toBuf (Val := Elt F) t = t := rfl

theorem launched_arg0 (c : Dev nD) : get (TRef.of main_arg0 : TRef sig ⟨S2000000x3, .f32⟩) (fun b => m (c, b))
    = m ((c : Thread nD τ).loc main_arg0) := rfl
theorem launched_arg1 (c : Dev nD) : get (TRef.of main_arg1 : TRef sig ⟨S2000000x32, .f32⟩) (fun b => m (c, b))
    = m ((c : Thread nD τ).loc main_arg1) := rfl
theorem launched_arg2 (c : Dev nD) : get (TRef.of main_arg2 : TRef sig ⟨S892865x3, .f32⟩) (fun b => m (c, b))
    = m ((c : Thread nD τ).loc main_arg2) := rfl
theorem launched_arg5 (c : Dev nD) : get (TRef.of main_arg5 : TRef sig ⟨S2000000, .i32⟩) (fun b => m (c, b))
    = m ((c : Thread nD τ).loc main_arg5) := rfl
theorem launched_arg6 (c : Dev nD) : get (TRef.of main_arg6 : TRef sig ⟨S2000000, .i32⟩) (fun b => m (c, b))
    = m ((c : Thread nD τ).loc main_arg6) := rfl

/-- The feature table at region entry: the feature rows of the points. -/
theorem feat_entry (c : Dev nD) : (V m c main_v0 : FVec F S2000000x32 .f32)
    = featRows (m ((c : Thread nD τ).loc main_arg1)) (m ((c : Thread nD τ).loc main_arg5)) := by
  have h := eq_toBuf_of_get (TRef.of main_v0 : TRef sig ⟨S2000000x32, .f32⟩) _ _ (feat_get (fun b => m (c, b)))
  rw [to_v0, launched_arg1, launched_arg5] at h
  exact h

/-- The position table at region entry: the position rows of the points. -/
theorem pos_entry (c : Dev nD) : (V m c main_v1 : FVec F S2000000x3 .f32)
    = posRows (m ((c : Thread nD τ).loc main_arg0)) (m ((c : Thread nD τ).loc main_arg5)) := by
  have h := eq_toBuf_of_get (TRef.of main_v1 : TRef sig ⟨S2000000x3, .f32⟩) _ _ (pos_get (fun b => m (c, b)))
  rw [to_v1, launched_arg0, launched_arg5] at h
  exact h

/-- The centre table at region entry: the centre rows of the pillars. -/
theorem centre_entry (c : Dev nD) : (V m c main_v2 : FVec F S2000000x3 .f32)
    = centreRows (m ((c : Thread nD τ).loc main_arg2)) (m ((c : Thread nD τ).loc main_arg6)) := by
  have h := eq_toBuf_of_get (TRef.of main_v2 : TRef sig ⟨S2000000x3, .f32⟩) _ _ (centre_get (fun b => m (c, b)))
  rw [to_v2, launched_arg2, launched_arg6] at h
  exact h

end Cert.KernelIdeal.Entry

end
-- ==== Proof.KernelRun.lean ====
/-
  The kernel's run, read: the result array as one function of the argument arrays.

  The generated run names the result array after the run as the array the blocks leave; the blocks leave `grouped` of
  the three row tables and the origin as the region finds them (the blocks tile the rows); the region finds the tables
  as the host's three row selections left them and the origin as launched.
-/
import proofs.«178524_j17884243821424_2_alg».proof.Proof.KernelBlocks
import proofs.«178524_j17884243821424_2_alg».proof.Proof.KernelEntry

noncomputable section

namespace Cert.KernelIdeal.Result

open Cert.KernelIdeal Cert.KernelIdeal.Gen Cert.KernelIdeal.Rows Cert.PillarGroup
open Idealize.ShloMosaic Idealize.ShloMosaic.TcCoe Idealize.SL.Sem

variable (m : (ℓ : Loc nD τ sig) → Buf (Elt Ideal) ℓ) (ρ : Dev nD → PrngReg)

/-- The result array after the run, as a function of the argument arrays as launched. -/
theorem final (c : Dev nD) : (dats m 0 c).arrAt 4 cfg0.N
    = grouped (featRows (m ((c : Thread nD τ).loc main_arg1)) (m ((c : Thread nD τ).loc main_arg5)))
        (posRows (m ((c : Thread nD τ).loc main_arg0)) (m ((c : Thread nD τ).loc main_arg5)))
        (centreRows (m ((c : Thread nD τ).loc main_arg2)) (m ((c : Thread nD τ).loc main_arg6)))
        (m ((c : Thread nD τ).loc main_arg4)) := by
  refine (Blocks.final m c).trans ?_
  show grouped (V m c main_v0) (V m c main_v1) (V m c main_v2) (V m c main_arg4) = _
  rw [Entry.feat_entry, Entry.pos_entry, Entry.centre_entry, V_main_arg4]

/-- Every weakly fair execution of the kernel's program terminates with the result array at `grouped` of the selected
    rows and the origin, the arguments unchanged. -/
theorem run : θ_run defs (onTc (τ := τ) (main (F := Ideal))) ⟨m, fun _ => 0, ρ⟩ fun r => ∀ c : Dev nD,
      r.2.mem ((c : Thread nD τ).loc main_v3)
        = grouped (featRows (m ((c : Thread nD τ).loc main_arg1)) (m ((c : Thread nD τ).loc main_arg5)))
            (posRows (m ((c : Thread nD τ).loc main_arg0)) (m ((c : Thread nD τ).loc main_arg5)))
            (centreRows (m ((c : Thread nD τ).loc main_arg2)) (m ((c : Thread nD τ).loc main_arg6)))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Result

end
-- ==== Proof.ReferenceRun.lean ====
/-
  The reference program's run, read back.

  The reference is straight-line host code: three row selections (each a function the tracer outlined, twenty-three
  operations with the outlined `where` counted in: the negative-index wrap, the range test, the gather, the fill), then
  `position - centre`, the range origin repeated over the rows, `position + origin`, and the three pieces laid side by
  side. Listed in order they are seventy-four operations over distinct buffers; every weakly fair execution runs them
  in order and terminates, each buffer ending at the composition of the operations that wrote it. Read at the result
  buffer that composition is the concatenation of the selected feature rows, the selected positions plus the origin
  and the selected positions minus the selected centres; read at an argument buffer it is the argument.
-/
import proofs.«178524_j17884243821424_2_alg».proof.Proof.Gen.ReferenceIdeal
import proofs.«178524_j17884243821424_2_alg».proof.Proof.Takes
import Idealize.ShloMosaic.Lib.StableHlo.Run
import Idealize.ShloMosaic.Lib.Pipeline.Regions

noncomputable section

namespace Cert.ReferenceIdeal.HostRun

open Cert.ReferenceIdeal Cert.ReferenceIdeal.Gen Idealize.ShloMosaic Idealize.ShloMosaic.TcCoe Idealize.SL.Sem
open Idealize.ShloMosaic.StableHlo
open Cert.KernelIdeal.Rows (featRows posRows centreRows)

variable {F : FTy → Type} [FloatOps F]

/-- The feature rows of the points: the first selection's twenty-three operations. -/
abbrev sel0 : List (HloOp τ sig (Elt F)) :=
  [ TRef.nullary main_call0.c (constantI S_ 32 0#32),
    TRef.unary main_call0.c main_call0.v0 (broadcastInDim S2000000 ![] bcast_S_S2000000),
    TRef.binary (.of main_arg5 : TRef sig ⟨S2000000, .i32⟩) main_call0.v0 main_call0.v1 (cmpi .slt),
    TRef.nullary main_call0.c_0 (constantI S_ 32 2000000#32),
    TRef.unary main_call0.c_0 main_call0.v2 (broadcastInDim S2000000 ![] bcast_S_S2000000),
    TRef.binary (.of main_arg5 : TRef sig ⟨S2000000, .i32⟩) main_call0.v2 main_call0.v3 addi,
    TRef.ternary main_call0.v1 main_call0.v3 (.of main_arg5 : TRef sig ⟨S2000000, .i32⟩) main_call0.call0.v0 select,
    TRef.unary main_call0.call0.v0 main_call0.v5 (broadcastInDim S2000000x1 ![0] bcast_S2000000_S2000000x1_0),
    TRef.nullary main_call0.c_1 (constantI S1 32 1999999#32),
    TRef.nullary main_call0.c_2 (constantI S_ 32 0#32),
    TRef.unary main_call0.c_2 main_call0.v6 (broadcastInDim S2000000x1 ![] bcast_S_S2000000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2000000x1 ![0, 1] bcast_S1x1_S2000000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2000000x1_S2000000_d1 h_S_),
    TRef.binary (.of main_arg1 : TRef sig ⟨S2000000x32, .f32⟩) main_call0.v5 main_call0.v13 (fun x i => Host.gather gather_S2000000x32_S2000000x1_S2000000x32_1_0_n_n_0_1_132 x i),
    TRef.unary main_call0.v12 main_call0.v14 (broadcastInDim S2000000x32 ![0] bcast_S2000000_S2000000x32_0),
    TRef.nullary main_call0.cst (constant S_ .f32 0x7FC00000#32),
    TRef.unary main_call0.cst main_call0.v15 (broadcastInDim S2000000x32 ![] bcast_S_S2000000x32),
    TRef.ternary main_call0.v14 main_call0.v13 main_call0.v15 main_call0.v16 select ]

/-- The position rows of the points: the second selection's twenty-three operations. -/
abbrev sel1 : List (HloOp τ sig (Elt F)) :=
  [ TRef.nullary main_call1.c (constantI S_ 32 0#32),
    TRef.unary main_call1.c main_call1.v0 (broadcastInDim S2000000 ![] bcast_S_S2000000),
    TRef.binary (.of main_arg5 : TRef sig ⟨S2000000, .i32⟩) main_call1.v0 main_call1.v1 (cmpi .slt),
    TRef.nullary main_call1.c_0 (constantI S_ 32 2000000#32),
    TRef.unary main_call1.c_0 main_call1.v2 (broadcastInDim S2000000 ![] bcast_S_S2000000),
    TRef.binary (.of main_arg5 : TRef sig ⟨S2000000, .i32⟩) main_call1.v2 main_call1.v3 addi,
    TRef.ternary main_call1.v1 main_call1.v3 (.of main_arg5 : TRef sig ⟨S2000000, .i32⟩) main_call1.call0.v0 select,
    TRef.unary main_call1.call0.v0 main_call1.v5 (broadcastInDim S2000000x1 ![0] bcast_S2000000_S2000000x1_0),
    TRef.nullary main_call1.c_1 (constantI S1 32 1999999#32),
    TRef.nullary main_call1.c_2 (constantI S_ 32 0#32),
    TRef.unary main_call1.c_2 main_call1.v6 (broadcastInDim S2000000x1 ![] bcast_S_S2000000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S2000000x1 ![0, 1] bcast_S1x1_S2000000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S2000000x1_S2000000_d1 h_S_),
    TRef.binary (.of main_arg0 : TRef sig ⟨S2000000x3, .f32⟩) main_call1.v5 main_call1.v13 (fun x i => Host.gather gather_S2000000x3_S2000000x1_S2000000x3_1_0_n_n_0_1_13 x i),
    TRef.unary main_call1.v12 main_call1.v14 (broadcastInDim S2000000x3 ![0] bcast_S2000000_S2000000x3_0),
    TRef.nullary main_call1.cst (constant S_ .f32 0x7FC00000#32),
    TRef.unary main_call1.cst main_call1.v15 (broadcastInDim S2000000x3 ![] bcast_S_S2000000x3),
    TRef.ternary main_call1.v14 main_call1.v13 main_call1.v15 main_call1.v16 select ]

/-- The centre rows of the pillars: the third selection's twenty-three operations. -/
abbrev sel2 : List (HloOp τ sig (Elt F)) :=
  [ TRef.nullary main_call2.c (constantI S_ 32 0#32),
    TRef.unary main_call2.c main_call2.v0 (broadcastInDim S2000000 ![] bcast_S_S2000000),
    TRef.binary (.of main_arg6 : TRef sig ⟨S2000000, .i32⟩) main_call2.v0 main_call2.v1 (cmpi .slt),
    TRef.nullary main_call2.c_0 (constantI S_ 32 892865#32),
    TRef.unary main_call2.c_0 main_call2.v2 (broadcastInDim S2000000 ![] bcast_S_S2000000),
    TRef.binary (.of main_arg6 : TRef sig ⟨S2000000, .i32⟩) main_call2.v2 main_call2.v3 addi,
    TRef.ternary main_call2.v1 main_call2.v3 (.of main_arg6 : TRef sig ⟨S2000000, .i32⟩) main_call2.call0.v0 select,
    TRef.unary main_call2.call0.v0 main_call2.v5 (broadcastInDim S2000000x1 ![0] bcast_S2000000_S2000000x1_0),
    TRef.nullary main_call2.c_1 (constantI S1 32 892864#32),
    TRef.nullary main_call2.c_2 (constantI S_ 32 0#32),
    TRef.unary main_call2.c_2 main_call2.v6 (broadcastInDim S2000000x1 ![] bcast_S_S2000000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S2000000x1 ![0, 1] bcast_S1x1_S2000000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S2000000x1_S2000000_d1 h_S_),
    TRef.binary (.of main_arg2 : TRef sig ⟨S892865x3, .f32⟩) main_call2.v5 main_call2.v13 (fun x i => Host.gather gather_S892865x3_S2000000x1_S2000000x3_1_0_n_n_0_1_13 x i),
    TRef.unary main_call2.v12 main_call2.v14 (broadcastInDim S2000000x3 ![0] bcast_S2000000_S2000000x3_0),
    TRef.nullary main_call2.cst (constant S_ .f32 0x7FC00000#32),
    TRef.unary main_call2.cst main_call2.v15 (broadcastInDim S2000000x3 ![] bcast_S_S2000000x3),
    TRef.ternary main_call2.v14 main_call2.v13 main_call2.v15 main_call2.v16 select ]

/-- The arithmetic after the selections: position minus centre, the origin repeated over the rows, position plus origin,
    and the three pieces side by side. -/
abbrev tailOps : List (HloOp τ sig (Elt F)) :=
  [ binary main_v1 main_v2 main_v3 (subf : (⟨S2000000x3, .f32⟩ : BufTy).Contents (Elt F) → (⟨S2000000x3, .f32⟩ : BufTy).Contents (Elt F) → (⟨S2000000x3, .f32⟩ : BufTy).Contents (Elt F)),
    unary main_arg4 main_v4 (broadcastInDim S1x3 ![1] bcast_S3_S1x3_1 : (⟨S3, .f32⟩ : BufTy).Contents (Elt F) → (⟨S1x3, .f32⟩ : BufTy).Contents (Elt F)),
    unary main_v4 main_v5 (broadcastInDim S2000000x3 ![0, 1] bcast_S1x3_S2000000x3_0_1 : (⟨S1x3, .f32⟩ : BufTy).Contents (Elt F) → (⟨S2000000x3, .f32⟩ : BufTy).Contents (Elt F)),
    binary main_v1 main_v5 main_v6 (addf : (⟨S2000000x3, .f32⟩ : BufTy).Contents (Elt F) → (⟨S2000000x3, .f32⟩ : BufTy).Contents (Elt F) → (⟨S2000000x3, .f32⟩ : BufTy).Contents (Elt F)),
    nary ![main_v0, main_v6, main_v3] main_v7 (fun u => concatenate S2000000x38 1 [⟨S2000000x32, u 0⟩, ⟨S2000000x3, u 1⟩, ⟨S2000000x3, u 2⟩] concatenates_S2000000x32_S2000000x3_S2000000x3_S2000000x38_d1) ]

/-- The three selections in order. -/
abbrev selOps : List (HloOp τ sig (Elt F)) := sel0 ++ (sel1 ++ sel2)

/-- @main's seventy-four operations in order. -/
abbrev ops : List (HloOp τ sig (Elt F)) := selOps ++ tailOps

/-- @main is the three selections, each the body of the outlined function at its call, then the arithmetic: the two
    sides are one tree of operation steps. -/
theorem main_chain (c : Dev nD) : main (F := F) c = (Pipeline.chain [seq sel0, seq sel1, seq sel2, seq tailOps] :
    Prog (TpuEff nD τ sig (Elt F) (Pipeline.Sig Λ₀ (Fin 0) fun p => (pcfgs (F := F) p).Adm) .tc) PUnit) := by
  chain_rfl

/-- @main is that straight line. -/
theorem main_eq (c : Dev nD) : main (F := F) c = seq ops := by
  rw [main_chain]
  simp only [seq_append, Pipeline.chain_cons, Pipeline.chain_nil, bind_assoc, bind_pure_unit]

theorem scopedRefs_eq : (Finset.univ.filter fun b : Ref sig .tc => b.isScoped) = ∅ := by decide
theorem scopedSems_eq : (Finset.univ.filter fun sm : SemLoc sig => sm.isScoped .tc) = ∅ := by decide

theorem sel0_sub : (sel0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem sel1_sub : (sel1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem sel2_sub : (sel2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem tail_sub : (tailOps : List (HloOp τ sig (Elt F))).Forall fun op => op.bufs ⊆ tcRefs τ sig :=
  ⟨binary_bufs_sub .., unary_bufs_sub .., unary_bufs_sub .., binary_bufs_sub .., nary_bufs_sub ..⟩

theorem ops_sub : (ops : List (HloOp τ sig (Elt F))).Forall fun op => op.bufs ⊆ tcRefs τ sig :=
  List.forall_append.mpr ⟨List.forall_append.mpr ⟨sel0_sub, List.forall_append.mpr ⟨sel1_sub, sel2_sub⟩⟩, tail_sub⟩

/-- Every weakly fair execution of @main terminates, each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HostRun

end
-- ==== Proof.ReferenceValue.lean ====
/-
  The reference's result, as one function of the argument arrays.

  Read at the values' types the three selections are the terms `featRows`, `posRows`, `centreRows` of the arguments (the same
  terms the kernel's host prefix computes: the two programs select rows with the same operations); the arithmetic after
  them lays the selected features, the selected positions plus the origin (repeated over the rows) and the selected
  positions minus the selected centres side by side; and that is `grouped` of the selections and the origin.
-/
import proofs.«178524_j17884243821424_2_alg».proof.Proof.ReferenceRun
import proofs.«178524_j17884243821424_2_alg».proof.Proof.LibTypedRead
import proofs.«178524_j17884243821424_2_alg».proof.Proof.Grouped

noncomputable section

namespace Cert.ReferenceIdeal.HostValue

open Cert.ReferenceIdeal Cert.ReferenceIdeal.Gen Cert.ReferenceIdeal.HostRun Cert.TypedRead Cert.PillarGroup
open Idealize.ShloMosaic Idealize.ShloMosaic.TcCoe Idealize.SL.Sem Idealize.ShloMosaic.StableHlo
open Idealize.ShloMosaic.ValueIdx
open Cert.KernelIdeal.Rows (featRows posRows centreRows)

variable {F : FTy → Type} [FloatOps F]

/-- The first selection, read at its type: the feature rows of the points. -/
theorem feat_get (W : Valuation τ sig (Elt F)) :
    get (TRef.of main_v0 : TRef sig ⟨S2000000x32, .f32⟩) (after selOps W)
      = featRows (get (TRef.of main_arg1 : TRef sig ⟨S2000000x32, .f32⟩) W)
          (get (TRef.of main_arg5 : TRef sig ⟨S2000000, .i32⟩) W) := by
  simp only [selOps, sel0, sel1, sel2, List.cons_append, List.nil_append, after_cons, after_nil]
  simp (disch := decide) only [get_nullary, get_unary, get_binary, get_ternary, get_nullary_ne, get_unary_ne,
    get_binary_ne, get_ternary_ne]
  rfl

/-- The second selection, read at its type: the position rows of the points. -/
theorem pos_get (W : Valuation τ sig (Elt F)) :
    get (TRef.of main_v1 : TRef sig ⟨S2000000x3, .f32⟩) (after selOps W)
      = posRows (get (TRef.of main_arg0 : TRef sig ⟨S2000000x3, .f32⟩) W)
          (get (TRef.of main_arg5 : TRef sig ⟨S2000000, .i32⟩) W) := by
  simp only [selOps, sel0, sel1, sel2, List.cons_append, List.nil_append, after_cons, after_nil]
  simp (disch := decide) only [get_nullary, get_unary, get_binary, get_ternary, get_nullary_ne, get_unary_ne,
    get_binary_ne, get_ternary_ne]
  rfl

/-- The third selection, read at its type: the centre rows of the pillars. -/
theorem centre_get (W : Valuation τ sig (Elt F)) :
    get (TRef.of main_v2 : TRef sig ⟨S2000000x3, .f32⟩) (after selOps W)
      = centreRows (get (TRef.of main_arg2 : TRef sig ⟨S892865x3, .f32⟩) W)
          (get (TRef.of main_arg6 : TRef sig ⟨S2000000, .i32⟩) W) := by
  simp only [selOps, sel0, sel1, sel2, List.cons_append, List.nil_append, after_cons, after_nil]
  simp (disch := decide) only [get_nullary, get_unary, get_binary, get_ternary, get_nullary_ne, get_unary_ne,
    get_binary_ne, get_ternary_ne]
  rfl

/-! ## The arithmetic after the selections -/

/-- The result buffer after the five last operations, over whatever the selections left: the three pieces side by side. -/
theorem tail_result (W : Valuation τ sig (Elt F)) :
    after tailOps W (Proc.devRef .tc main_v7)
      = concatenate S2000000x38 1
          [⟨S2000000x32, W (Proc.devRef .tc main_v0)⟩,
            ⟨S2000000x3, addf (W (Proc.devRef .tc main_v1))
              (broadcastInDim S2000000x3 ![0, 1] bcast_S1x3_S2000000x3_0_1
                (broadcastInDim S1x3 ![1] bcast_S3_S1x3_1 (W (Proc.devRef .tc main_arg4))))⟩,
            ⟨S2000000x3, subf (W (Proc.devRef .tc main_v1)) (W (Proc.devRef .tc main_v2))⟩]
          concatenates_S2000000x32_S2000000x3_S2000000x3_S2000000x38_d1 := by
  simp only [tailOps, after_cons, after_nil]
  rw [nary3_result]
  repeat (first
    | rw [binary_result] | rw [unary_result]
    | (rw [binary_result_ne]; rotate_left; decide)
    | (rw [unary_result_ne]; rotate_left; decide))
  rfl

/-- No selection writes the origin's buffer. -/
theorem origin_kept (W : Valuation τ sig (Elt F)) :
    after selOps W (Proc.devRef .tc main_arg4) = W (Proc.devRef .tc main_arg4) :=
  after_of_forall_not_mem (b := Proc.devRef .tc main_arg4) _ _ (List.forall_iff_forall_mem.mp (by
    simp only [selOps, sel0, sel1, sel2, List.cons_append, List.nil_append, List.Forall, nullary_writes, unary_writes,
      binary_writes, ternary_writes, Finset.mem_singleton]
    repeat' apply And.intro
    all_goals exact devRef_ne_of_ne (by decide)))

/-! ## From the typed reads to the buffers' contents (at a literal reference the transports are the identity) -/

theorem to_v0 (t : FVec F S2000000x32 .f32) : (TRef.of main_v0 : TRef sig ⟨S2000000x32, .f32⟩).toBuf (Val := Elt F) t = t := rfl
theorem to_v1 (t : FVec F S2000000x3 .f32) : (TRef.of main_v1 : TRef sig ⟨S2000000x3, .f32⟩).toBuf (Val := Elt F) t = t := rfl
theorem to_v2 (t : FVec F S2000000x3 .f32) : (TRef.of main_v2 : TRef sig ⟨S2000000x3, .f32⟩).toBuf (Val := Elt F) t = t := rfl

variable (m : (ℓ : Loc nD τ sig) → Buf (Elt F) ℓ)

theorem launched_arg0 (c : Dev nD) : get (TRef.of main_arg0 : TRef sig ⟨S2000000x3, .f32⟩) (launchContents m c)
    = m ((c : Thread nD τ).loc main_arg0) := rfl
theorem launched_arg1 (c : Dev nD) : get (TRef.of main_arg1 : TRef sig ⟨S2000000x32, .f32⟩) (launchContents m c)
    = m ((c : Thread nD τ).loc main_arg1) := rfl
theorem launched_arg2 (c : Dev nD) : get (TRef.of main_arg2 : TRef sig ⟨S892865x3, .f32⟩) (launchContents m c)
    = m ((c : Thread nD τ).loc main_arg2) := rfl
theorem launched_arg5 (c : Dev nD) : get (TRef.of main_arg5 : TRef sig ⟨S2000000, .i32⟩) (launchContents m c)
    = m ((c : Thread nD τ).loc main_arg5) := rfl
theorem launched_arg6 (c : Dev nD) : get (TRef.of main_arg6 : TRef sig ⟨S2000000, .i32⟩) (launchContents m c)
    = m ((c : Thread nD τ).loc main_arg6) := rfl

/-- The three tables the selections leave, as functions of the arguments as launched. -/
theorem feat_left (c : Dev nD) : after selOps (launchContents m c) (Proc.devRef .tc main_v0)
    = featRows (m ((c : Thread nD τ).loc main_arg1)) (m ((c : Thread nD τ).loc main_arg5)) := by
  have h := eq_toBuf_of_get (TRef.of main_v0 : TRef sig ⟨S2000000x32, .f32⟩) _ _ (feat_get (launchContents m c))
  rw [to_v0, launched_arg1, launched_arg5] at h
  exact h

theorem pos_left (c : Dev nD) : after selOps (launchContents m c) (Proc.devRef .tc main_v1)
    = posRows (m ((c : Thread nD τ).loc main_arg0)) (m ((c : Thread nD τ).loc main_arg5)) := by
  have h := eq_toBuf_of_get (TRef.of main_v1 : TRef sig ⟨S2000000x3, .f32⟩) _ _ (pos_get (launchContents m c))
  rw [to_v1, launched_arg0, launched_arg5] at h
  exact h

theorem centre_left (c : Dev nD) : after selOps (launchContents m c) (Proc.devRef .tc main_v2)
    = centreRows (m ((c : Thread nD τ).loc main_arg2)) (m ((c : Thread nD τ).loc main_arg6)) := by
  have h := eq_toBuf_of_get (TRef.of main_v2 : TRef sig ⟨S2000000x3, .f32⟩) _ _ (centre_get (launchContents m c))
  rw [to_v2, launched_arg2, launched_arg6] at h
  exact h

end Cert.ReferenceIdeal.HostValue

/-! ## The result at the ideal instance, and the run -/

namespace Cert.ReferenceIdeal.HostValue

open Cert.ReferenceIdeal Cert.ReferenceIdeal.Gen Cert.ReferenceIdeal.HostRun Cert.TypedRead Cert.PillarGroup
open Idealize.ShloMosaic Idealize.ShloMosaic.TcCoe Idealize.SL.Sem Idealize.ShloMosaic.StableHlo
open Idealize.ShloMosaic.ValueIdx
open Cert.KernelIdeal.Rows (featRows posRows centreRows)

variable (m : (ℓ : Loc nD τ sig) → Buf (Elt Ideal) ℓ) (ρ : Dev nD → PrngReg)

/-- The origin repeated over the rows has the origin in every row. -/
theorem origin_rows (p : FVec Ideal S3 .f32) (r : Fin 2000000) (k : Fin 3) :
    broadcastInDim S2000000x3 ![0, 1] bcast_S1x3_S2000000x3_0_1 (broadcastInDim S1x3 ![1] bcast_S3_S1x3_1 p) (ix2 r k)
      = p (ix1 k) :=
  (broadcastInDim_apply _ _ _ (ix2 r k) (ix2 (0 : Fin 1) k) (fun a => by
    match a with
    | ⟨0, _⟩ => rfl
    | ⟨1, _⟩ => rfl)).trans
  (broadcastInDim_apply _ _ _ (ix2 (0 : Fin 1) k) (ix1 k) (fun a => by
    match a with
    | ⟨0, _⟩ => rfl))

/-- The result buffer after the run's seventy-four operations is `grouped` of the three selections and the origin. -/
theorem result_eq (c : Dev nD) : after ops (launchContents m c) (Proc.devRef .tc main_v7)
    = grouped (featRows (m ((c : Thread nD τ).loc main_arg1)) (m ((c : Thread nD τ).loc main_arg5)))
        (posRows (m ((c : Thread nD τ).loc main_arg0)) (m ((c : Thread nD τ).loc main_arg5)))
        (centreRows (m ((c : Thread nD τ).loc main_arg2)) (m ((c : Thread nD τ).loc main_arg6)))
        (m ((c : Thread nD τ).loc main_arg4)) := by
  rw [StableHlo.after_append, tail_result, feat_left, pos_left, centre_left, origin_kept]
  exact concat_eq_grouped _ _ _ _ (m ((c : Thread nD τ).loc main_arg4)) (origin_rows _) _

/-- No operation writes an argument's buffer. -/
theorem arg0_kept (W : Valuation τ sig (Elt Ideal)) : after ops W (Proc.devRef .tc main_arg0) = W (Proc.devRef .tc main_arg0) :=
  after_of_forall_not_mem (b := Proc.devRef .tc main_arg0) _ _ (List.forall_iff_forall_mem.mp (by
    simp only [ops, selOps, sel0, sel1, sel2, tailOps, List.cons_append, List.nil_append, List.Forall, nullary_writes,
      unary_writes, binary_writes, ternary_writes, nary_writes, Finset.mem_singleton]
    repeat' apply And.intro
    all_goals exact devRef_ne_of_ne (by decide)))
theorem arg1_kept (W : Valuation τ sig (Elt Ideal)) : after ops W (Proc.devRef .tc main_arg1) = W (Proc.devRef .tc main_arg1) :=
  after_of_forall_not_mem (b := Proc.devRef .tc main_arg1) _ _ (List.forall_iff_forall_mem.mp (by
    simp only [ops, selOps, sel0, sel1, sel2, tailOps, List.cons_append, List.nil_append, List.Forall, nullary_writes,
      unary_writes, binary_writes, ternary_writes, nary_writes, Finset.mem_singleton]
    repeat' apply And.intro
    all_goals exact devRef_ne_of_ne (by decide)))
theorem arg2_kept (W : Valuation τ sig (Elt Ideal)) : after ops W (Proc.devRef .tc main_arg2) = W (Proc.devRef .tc main_arg2) :=
  after_of_forall_not_mem (b := Proc.devRef .tc main_arg2) _ _ (List.forall_iff_forall_mem.mp (by
    simp only [ops, selOps, sel0, sel1, sel2, tailOps, List.cons_append, List.nil_append, List.Forall, nullary_writes,
      unary_writes, binary_writes, ternary_writes, nary_writes, Finset.mem_singleton]
    repeat' apply And.intro
    all_goals exact devRef_ne_of_ne (by decide)))
theorem arg3_kept (W : Valuation τ sig (Elt Ideal)) : after ops W (Proc.devRef .tc main_arg3) = W (Proc.devRef .tc main_arg3) :=
  after_of_forall_not_mem (b := Proc.devRef .tc main_arg3) _ _ (List.forall_iff_forall_mem.mp (by
    simp only [ops, selOps, sel0, sel1, sel2, tailOps, List.cons_append, List.nil_append, List.Forall, nullary_writes,
      unary_writes, binary_writes, ternary_writes, nary_writes, Finset.mem_singleton]
    repeat' apply And.intro
    all_goals exact devRef_ne_of_ne (by decide)))
theorem arg4_kept (W : Valuation τ sig (Elt Ideal)) : after ops W (Proc.devRef .tc main_arg4) = W (Proc.devRef .tc main_arg4) :=
  after_of_forall_not_mem (b := Proc.devRef .tc main_arg4) _ _ (List.forall_iff_forall_mem.mp (by
    simp only [ops, selOps, sel0, sel1, sel2, tailOps, List.cons_append, List.nil_append, List.Forall, nullary_writes,
      unary_writes, binary_writes, ternary_writes, nary_writes, Finset.mem_singleton]
    repeat' apply And.intro
    all_goals exact devRef_ne_of_ne (by decide)))
theorem arg5_kept (W : Valuation τ sig (Elt Ideal)) : after ops W (Proc.devRef .tc main_arg5) = W (Proc.devRef .tc main_arg5) :=
  after_of_forall_not_mem (b := Proc.devRef .tc main_arg5) _ _ (List.forall_iff_forall_mem.mp (by
    simp only [ops, selOps, sel0, sel1, sel2, tailOps, List.cons_append, List.nil_append, List.Forall, nullary_writes,
      unary_writes, binary_writes, ternary_writes, nary_writes, Finset.mem_singleton]
    repeat' apply And.intro
    all_goals exact devRef_ne_of_ne (by decide)))
theorem arg6_kept (W : Valuation τ sig (Elt Ideal)) : after ops W (Proc.devRef .tc main_arg6) = W (Proc.devRef .tc main_arg6) :=
  after_of_forall_not_mem (b := Proc.devRef .tc main_arg6) _ _ (List.forall_iff_forall_mem.mp (by
    simp only [ops, selOps, sel0, sel1, sel2, tailOps, List.cons_append, List.nil_append, List.Forall, nullary_writes,
      unary_writes, binary_writes, ternary_writes, nary_writes, Finset.mem_singleton]
    repeat' apply And.intro
    all_goals exact devRef_ne_of_ne (by decide)))

/-- Every weakly fair execution of the reference terminates with the result at `grouped` of the selected rows and the
    origin, the arguments unchanged. -/
theorem run : θ_run defs (onTc (τ := τ) (main (F := Ideal))) ⟨m, fun _ => 0, ρ⟩ fun r => ∀ c : Dev nD,
      r.2.mem ((c.tc : Thread nD τ).loc main_v7)
        = grouped (featRows (m ((c : Thread nD τ).loc main_arg1)) (m ((c : Thread nD τ).loc main_arg5)))
            (posRows (m ((c : Thread nD τ).loc main_arg0)) (m ((c : Thread nD τ).loc main_arg5)))
            (centreRows (m ((c : Thread nD τ).loc main_arg2)) (m ((c : Thread nD τ).loc main_arg6)))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c main_v7).trans (result_eq m c),
      (h c main_arg0).trans (arg0_kept _), (h c main_arg1).trans (arg1_kept _), (h c main_arg2).trans (arg2_kept _),
      (h c main_arg3).trans (arg3_kept _), (h c main_arg4).trans (arg4_kept _), (h c main_arg5).trans (arg5_kept _),
      (h c main_arg6).trans (arg6_kept _)⟩)
    (run_main m ρ)

end Cert.ReferenceIdeal.HostValue

end
-- ==== Proof.lean ====
/-
  The grouped point features of a pillar network, a streaming kernel against its array reference.

  Both programs start with the same three row selections on the host (each `jnp.take` along the rows with out-of-range
  numbers filled): the 32 feature channels and the 3 coordinates of 2 000 000 points by the point numbers, and the 3
  centre coordinates of 892 865 pillars by the pillar numbers. The reference then lays side by side, per row, the selected
  features, the selected position plus the origin of the range, and the selected position minus the selected centre.
  The kernel does that arithmetic in a pipeline of 400 grid points over blocks of 5000 rows: it loads the three blocks and
  the origin, forms the same three pieces and stores them side by side into the block of the result.

  Over the extended reals the two results are one function of the arguments, `grouped` of the three selections and the
  origin (Proof/Grouped.lean):
   * a row of the grouped features depends only on the same row of the three tables, so the kernel's block at a grid point
     is that block of `grouped` of the whole tables, and the 400 blocks tile the rows (Proof/KernelBlocks.lean);
   * the tables the kernel's region finds are the three selections of the arguments (Proof/KernelEntry.lean), as are the
     ones the reference's arithmetic starts from (Proof/ReferenceValue.lean);
   * the reference's concatenation is `grouped` as well.
  No law of arithmetic is used: the sums and differences are the same on both sides, term for term, so the precondition
  (finite inputs) is never opened. The integer results (the pillars and the pillar numbers) are arguments returned unchanged.
  The frames of the two kernel programs are the generated ones; the reference's frame is its run with the result dropped;
  the idealization rewrote nothing, so nothing is owed for it.
-/
import proofs.«178524_j17884243821424_2_alg».proof.Defs
import proofs.«178524_j17884243821424_2_alg».proof.Proof.Gen.Kernel
import proofs.«178524_j17884243821424_2_alg».proof.Proof.Gen.Kernel.Skeleton
import proofs.«178524_j17884243821424_2_alg».proof.Proof.Gen.Kernel.Launch
import proofs.«178524_j17884243821424_2_alg».proof.Proof.Gen.Kernel.Points
import proofs.«178524_j17884243821424_2_alg».proof.Proof.Gen.Kernel.Frame
import proofs.«178524_j17884243821424_2_alg».proof.Proof.Gen.KernelIdeal
import proofs.«178524_j17884243821424_2_alg».proof.Proof.Gen.KernelIdeal.Skeleton
import proofs.«178524_j17884243821424_2_alg».proof.Proof.Gen.KernelIdeal.Launch
import proofs.«178524_j17884243821424_2_alg».proof.Proof.Gen.KernelIdeal.Points
import proofs.«178524_j17884243821424_2_alg».proof.Proof.Gen.KernelIdeal.Frame
import proofs.«178524_j17884243821424_2_alg».proof.Proof.Gen.KernelIdeal.Value
import proofs.«178524_j17884243821424_2_alg».proof.Proof.Gen.ReferenceIdeal
import proofs.«178524_j17884243821424_2_alg».proof.Proof.Gen.Pre_finite_inputs
import proofs.«178524_j17884243821424_2_alg».proof.Proof.KernelRun
import proofs.«178524_j17884243821424_2_alg».proof.Proof.ReferenceValue
import Idealize.ShloMosaic.Adequacy
import Idealize.ShloMosaic.Init

noncomputable section

namespace Cert.Proof

open Idealize.ShloMosaic Idealize.ShloMosaic.TcCoe Idealize.SL.Sem Cert.PillarGroup
open Cert.KernelIdeal.Rows (featRows posRows centreRows)

theorem frame_kernel : Cert.frame_Kernel := fun m ρ _ => Cert.Kernel.Gen.frame m ρ

theorem frame_kernel_ideal : Cert.frame_KernelIdeal := fun m ρ _ => Cert.KernelIdeal.Gen.frame m ρ

/-- The reference's run with the result dropped: it terminates and its arguments end as launched. -/
theorem frame_reference_ideal : Cert.frame_ReferenceIdeal := fun m ρ _ =>
  (θ_run Cert.ReferenceIdeal.defs _ _).mono (fun _ h c => (h c).2) (Cert.ReferenceIdeal.HostValue.run m ρ)

/-- The idealization rewrote no operation. -/
theorem preserves : Cert.preserves_Kernel_KernelIdeal := trivial

/-- From memories agreeing on the arguments both programs end with the pillars, the pillar numbers and `grouped` of
    the three selections and the origin. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg3),
    fun c => m ((c.tc : Thread Cert.KernelIdeal.nD Cert.KernelIdeal.τ).loc Cert.KernelIdeal.main_arg6),
    fun c => grouped
      (featRows (m ((c.tc : Thread Cert.KernelIdeal.nD Cert.KernelIdeal.τ).loc Cert.KernelIdeal.main_arg1))
        (m ((c.tc : Thread Cert.KernelIdeal.nD Cert.KernelIdeal.τ).loc Cert.KernelIdeal.main_arg5)))
      (posRows (m ((c.tc : Thread Cert.KernelIdeal.nD Cert.KernelIdeal.τ).loc Cert.KernelIdeal.main_arg0))
        (m ((c.tc : Thread Cert.KernelIdeal.nD Cert.KernelIdeal.τ).loc Cert.KernelIdeal.main_arg5)))
      (centreRows (m ((c.tc : Thread Cert.KernelIdeal.nD Cert.KernelIdeal.τ).loc Cert.KernelIdeal.main_arg2))
        (m ((c.tc : Thread Cert.KernelIdeal.nD Cert.KernelIdeal.τ).loc Cert.KernelIdeal.main_arg6)))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Result.run m ρ)
    obtain ⟨e, a0, a1, a2, a3, a4, a5, a6⟩ := h c
    exact ⟨a3, a6, e, a0, a1, a2, a3, a4, a5, a6⟩
  · refine (θ_run Cert.ReferenceIdeal.defs _ _).mono (fun r h c => ?_) (Cert.ReferenceIdeal.HostValue.run m' ρ')
    obtain ⟨e, a0, a1, a2, a3, a4, a5, a6⟩ := h c
    obtain ⟨g0, g1, g2, g3, g4, g5, g6⟩ := hagree c
    refine ⟨a3.trans g3, a6.trans g6, e.trans ?_, a0, a1, a2, a3, a4, a5, a6⟩
    rw [g0, g1, g2, g4, g5, g6]

theorem claim : Cert.Claim := ⟨Cert.Kernel.Gen.facts, Cert.KernelIdeal.Gen.facts, Cert.ReferenceIdeal.Gen.facts,
  Cert.Pre_finite_inputs.Gen.facts, frame_kernel, frame_kernel_ideal, frame_reference_ideal, preserves, algebraic⟩

end Cert.Proof

end
